-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x7x2048 : Shape := ⟨3, ![8192, 7, 2048]⟩
abbrev S2x2048 : Shape := ⟨2, ![2, 2048]⟩
abbrev S3x2048 : Shape := ⟨2, ![3, 2048]⟩
abbrev S_ : Shape := ⟨0, ![]⟩

class Facts : Prop where
  bcast_S_S8192x7x2048 : S_.BroadcastsInDim S8192x7x2048 (![] : Fin 0 → Fin S8192x7x2048.rank)
  reducesTo_S8192x7x2048_S_d0_1_2 : S8192x7x2048.ReducesTo [0, 1, 2] S_
  h_S_ : 0 < S_.numel
  bcast_S_S2x2048 : S_.BroadcastsInDim S2x2048 (![] : Fin 0 → Fin S2x2048.rank)
  reducesTo_S2x2048_S_d0_1 : S2x2048.ReducesTo [0, 1] S_
  bcast_S_S3x2048 : S_.BroadcastsInDim S3x2048 (![] : Fin 0 → Fin S3x2048.rank)
  reducesTo_S3x2048_S_d0_1 : S3x2048.ReducesTo [0, 1] S_

variable [Facts]

def fn_part1 {F : FTy → Type} [FloatOps F] (main_arg4 : FVec F S3x2048 .f32) (main_v13 : IVec S_ 1) (main_v16 : IVec S3x2048 1) : IVec S_ 1 :=
  let main_c_5 : IVec S_ 1 := constantI S_ 1 1#1
  let main_v17 : IVec S_ 1 := (fun x v => Host.reduce IntOp.andi x v reducesTo_S3x2048_S_d0_1 h_S_) main_v16 main_c_5
  let main_v18 : IVec S_ 1 := andi main_v13 main_v17
  let main_v19 : FVec F S3x2048 .f32 := Host.absf main_arg4
  let main_cst_6 : FVec F S_ .f32 := constant S_ .f32 0x7F800000#32
  let main_v20 : FVec F S3x2048 .f32 := broadcastInDim S3x2048 ![] bcast_S_S3x2048 main_cst_6
  let main_v21 : IVec S3x2048 1 := cmpf .olt main_v19 main_v20
  let main_c_7 : IVec S_ 1 := constantI S_ 1 1#1
  let main_v22 : IVec S_ 1 := (fun x v => Host.reduce IntOp.andi x v reducesTo_S3x2048_S_d0_1 h_S_) main_v21 main_c_7
  let main_v23 : IVec S_ 1 := andi main_v18 main_v22
  main_v23

def fn {F : FTy → Type} [FloatOps F] (main_arg0 : FVec F S8192x7x2048 .f32) (main_arg1 : FVec F S2x2048 .f32) (main_arg2 : FVec F S2x2048 .f32) (main_arg3 : FVec F S3x2048 .f32) (main_arg4 : FVec F S3x2048 .f32) : IVec S_ 1 :=
  let main_v0 : FVec F S8192x7x2048 .f32 := Host.absf main_arg0
  let main_cst : FVec F S_ .f32 := constant S_ .f32 0x7F800000#32
  let main_v1 : FVec F S8192x7x2048 .f32 := broadcastInDim S8192x7x2048 ![] bcast_S_S8192x7x2048 main_cst
  let main_v2 : IVec S8192x7x2048 1 := cmpf .olt main_v0 main_v1
  let main_c : IVec S_ 1 := constantI S_ 1 1#1
  let main_v3 : IVec S_ 1 := (fun x v => Host.reduce IntOp.andi x v reducesTo_S8192x7x2048_S_d0_1_2 h_S_) main_v2 main_c
  let main_v4 : FVec F S2x2048 .f32 := Host.absf main_arg1
  let main_cst_0 : FVec F S_ .f32 := constant S_ .f32 0x7F800000#32
  let main_v5 : FVec F S2x2048 .f32 := broadcastInDim S2x2048 ![] bcast_S_S2x2048 main_cst_0
  let main_v6 : IVec S2x2048 1 := cmpf .olt main_v4 main_v5
  let main_c_1 : IVec S_ 1 := constantI S_ 1 1#1
  let main_v7 : IVec S_ 1 := (fun x v => Host.reduce IntOp.andi x v reducesTo_S2x2048_S_d0_1 h_S_) main_v6 main_c_1
  let main_v8 : IVec S_ 1 := andi main_v3 main_v7
  let main_v9 : FVec F S2x2048 .f32 := Host.absf main_arg2
  let main_cst_2 : FVec F S_ .f32 := constant S_ .f32 0x7F800000#32
  let main_v10 : FVec F S2x2048 .f32 := broadcastInDim S2x2048 ![] bcast_S_S2x2048 main_cst_2
  let main_v11 : IVec S2x2048 1 := cmpf .olt main_v9 main_v10
  let main_c_3 : IVec S_ 1 := constantI S_ 1 1#1
  let main_v12 : IVec S_ 1 := (fun x v => Host.reduce IntOp.andi x v reducesTo_S2x2048_S_d0_1 h_S_) main_v11 main_c_3
  let main_v13 : IVec S_ 1 := andi main_v8 main_v12
  let main_v14 : FVec F S3x2048 .f32 := Host.absf main_arg3
  let main_cst_4 : FVec F S_ .f32 := constant S_ .f32 0x7F800000#32
  let main_v15 : FVec F S3x2048 .f32 := broadcastInDim S3x2048 ![] bcast_S_S3x2048 main_cst_4
  let main_v16 : IVec S3x2048 1 := cmpf .olt main_v14 main_v15
  fn_part1 (F := F) main_arg4 main_v13 main_v16
-- ==== Kernel.lean ====
abbrev S8192x7x2048 : Shape := ⟨3, ![8192, 7, 2048]⟩
abbrev S2x2048 : Shape := ⟨2, ![2, 2048]⟩
abbrev S3x2048 : Shape := ⟨2, ![3, 2048]⟩
abbrev S8192x14336 : Shape := ⟨2, ![8192, 14336]⟩
abbrev S8192x2048 : Shape := ⟨2, ![8192, 2048]⟩
abbrev S256x14336 : Shape := ⟨2, ![256, 14336]⟩
abbrev S256x2048 : Shape := ⟨2, ![256, 2048]⟩
abbrev S1x2048 : Shape := ⟨2, ![1, 2048]⟩
abbrev S2048 : Shape := ⟨1, ![2048]⟩

abbrev nBuf : Space → Nat
  | .hbm => 7
  | .vmem => 8
  | .smem => 0
  | _ => 0

abbrev bufTy : (tb : Table) → Fin (tcTables nBuf tb) → BufTy
  | .hbm, ⟨0, _⟩ => ⟨S8192x7x2048, .f32⟩
  | .hbm, ⟨1, _⟩ => ⟨S2x2048, .f32⟩
  | .hbm, ⟨2, _⟩ => ⟨S2x2048, .f32⟩
  | .hbm, ⟨3, _⟩ => ⟨S3x2048, .f32⟩
  | .hbm, ⟨4, _⟩ => ⟨S3x2048, .f32⟩
  | .hbm, ⟨5, _⟩ => ⟨S8192x14336, .f32⟩
  | .hbm, ⟨6, _⟩ => ⟨S8192x2048, .f32⟩
  | .local _ .vmem, ⟨0, _⟩ => ⟨S256x14336, .f32⟩
  | .local _ .vmem, ⟨1, _⟩ => ⟨S256x14336, .f32⟩
  | .local _ .vmem, ⟨2, _⟩ => ⟨S2x2048, .f32⟩
  | .local _ .vmem, ⟨3, _⟩ => ⟨S2x2048, .f32⟩
  | .local _ .vmem, ⟨4, _⟩ => ⟨S3x2048, .f32⟩
  | .local _ .vmem, ⟨5, _⟩ => ⟨S3x2048, .f32⟩
  | .local _ .vmem, ⟨6, _⟩ => ⟨S256x2048, .f32⟩
  | .local _ .vmem, ⟨7, _⟩ => ⟨S256x2048, .f32⟩
  | _, _ => ⟨S8192x7x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x14336 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192x7x2048_S8192x14336 : S8192x7x2048.ShapeCasts S8192x14336
  inb_S256x14336_S256x2048_0_0 : ∀ a, (![0, 0] : Fin 2 → Nat) a + S256x2048.size a ≤ S256x14336.size a
  h_S256x2048 : 0 < S256x2048.numel
  shapeCasts_S256x2048_S256x2048 : S256x2048.ShapeCasts S256x2048
  inb_S256x14336_S256x2048_0_2048 : ∀ a, (![0, 2048] : Fin 2 → Nat) a + S256x2048.size a ≤ S256x14336.size a
  inb_S256x14336_S256x2048_0_4096 : ∀ a, (![0, 4096] : Fin 2 → Nat) a + S256x2048.size a ≤ S256x14336.size a
  inb_S256x14336_S256x2048_0_6144 : ∀ a, (![0, 6144] : Fin 2 → Nat) a + S256x2048.size a ≤ S256x14336.size a
  inb_S256x14336_S256x2048_0_8192 : ∀ a, (![0, 8192] : Fin 2 → Nat) a + S256x2048.size a ≤ S256x14336.size a
  inb_S256x14336_S256x2048_0_10240 : ∀ a, (![0, 10240] : Fin 2 → Nat) a + S256x2048.size a ≤ S256x14336.size a
  inb_S256x14336_S256x2048_0_12288 : ∀ a, (![0, 12288] : Fin 2 → Nat) a + S256x2048.size a ≤ S256x14336.size a
  inb_S2x2048_S1x2048_0_0 : ∀ a, (![0, 0] : Fin 2 → Nat) a + S1x2048.size a ≤ S2x2048.size a
  h_S1x2048 : 0 < S1x2048.numel
  shapeCasts_S1x2048_S2048 : S1x2048.ShapeCasts S2048
  inb_S2x2048_S1x2048_1_0 : ∀ a, (![1, 0] : Fin 2 → Nat) a + S1x2048.size a ≤ S2x2048.size a
  shapeCasts_S2048_S1x2048 : S2048.ShapeCasts S1x2048
  broadcasts_S1x2048_S256x2048 : S1x2048.Broadcasts S256x2048
  inb_S3x2048_S1x2048_0_0 : ∀ a, (![0, 0] : Fin 2 → Nat) a + S1x2048.size a ≤ S3x2048.size a
  inb_S3x2048_S1x2048_1_0 : ∀ a, (![1, 0] : Fin 2 → Nat) a + S1x2048.size a ≤ S3x2048.size a
  inb_S3x2048_S1x2048_2_0 : ∀ a, (![2, 0] : Fin 2 → Nat) a + S1x2048.size a ≤ S3x2048.size a
  inb_S256x2048_S256x2048_0_0 : ∀ a, (![0, 0] : Fin 2 → Nat) a + S256x2048.size a ≤ S256x2048.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x14336.size a ≤ S8192x14336.size a
  hwx0_0 : ∀ i : grid0.Coords, EltTy.bits .f32 = 32 ∨ (Rect.block (s := S8192x14336) S256x14336.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2048.size a ≤ S2x2048.size a
  hwx0_1 : ∀ i : grid0.Coords, EltTy.bits .f32 = 32 ∨ (Rect.block (s := S2x2048) S2x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x2048.size a ≤ S2x2048.size a
  hwx0_2 : ∀ i : grid0.Coords, EltTy.bits .f32 = 32 ∨ (Rect.block (s := S2x2048) S2x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x2048.size a ≤ S3x2048.size a
  hwx0_3 : ∀ i : grid0.Coords, EltTy.bits .f32 = 32 ∨ (Rect.block (s := S3x2048) S3x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x2048.size a ≤ S3x2048.size a
  hwx0_4 : ∀ i : grid0.Coords, EltTy.bits .f32 = 32 ∨ (Rect.block (s := S3x2048) S3x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .f32 = 32 ∨ (Rect.block (s := S8192x2048) S256x2048.size (cc0_transform_5 i) (hinb0_5 i)).WholeWords (EltTy.packing .f32)

variable [Facts₀]

abbrev win0_0 : Pipeline.Window sig grid0 :=
  Pipeline.Window.ofSpec (Memref.whole main_v0) S256x14336.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x7x2048 : Shape := ⟨3, ![8192, 7, 2048]⟩
abbrev S2x2048 : Shape := ⟨2, ![2, 2048]⟩
abbrev S3x2048 : Shape := ⟨2, ![3, 2048]⟩
abbrev S8192x6x2048 : Shape := ⟨3, ![8192, 6, 2048]⟩
abbrev S1x2048 : Shape := ⟨2, ![1, 2048]⟩
abbrev S2048 : Shape := ⟨1, ![2048]⟩
abbrev S1x1x2048 : Shape := ⟨3, ![1, 1, 2048]⟩
abbrev S8192x5x2048 : Shape := ⟨3, ![8192, 5, 2048]⟩
abbrev S8192x3x2048 : Shape := ⟨3, ![8192, 3, 2048]⟩
abbrev S8192x1x2048 : Shape := ⟨3, ![8192, 1, 2048]⟩
abbrev S8192x2048 : Shape := ⟨2, ![8192, 2048]⟩

abbrev nBuf : Space → Nat
  | .hbm => 76
  | .vmem => 0
  | .smem => 0
  | _ => 0

abbrev bufTy : (tb : Table) → Fin (tcTables nBuf tb) → BufTy
  | .hbm, ⟨0, _⟩ => ⟨S8192x7x2048, .f32⟩
  | .hbm, ⟨1, _⟩ => ⟨S2x2048, .f32⟩
  | .hbm, ⟨2, _⟩ => ⟨S2x2048, .f32⟩
  | .hbm, ⟨3, _⟩ => ⟨S3x2048, .f32⟩
  | .hbm, ⟨4, _⟩ => ⟨S3x2048, .f32⟩
  | .hbm, ⟨5, _⟩ => ⟨S8192x6x2048, .f32⟩
  | .hbm, ⟨6, _⟩ => ⟨S1x2048, .f32⟩
  | .hbm, ⟨7, _⟩ => ⟨S2048, .f32⟩
  | .hbm, ⟨8, _⟩ => ⟨S1x1x2048, .f32⟩
  | .hbm, ⟨9, _⟩ => ⟨S8192x6x2048, .f32⟩
  | .hbm, ⟨10, _⟩ => ⟨S8192x6x2048, .f32⟩
  | .hbm, ⟨11, _⟩ => ⟨S8192x6x2048, .f32⟩
  | .hbm, ⟨12, _⟩ => ⟨S1x2048, .f32⟩
  | .hbm, ⟨13, _⟩ => ⟨S2048, .f32⟩
  | .hbm, ⟨14, _⟩ => ⟨S1x1x2048, .f32⟩
  | .hbm, ⟨15, _⟩ => ⟨S8192x6x2048, .f32⟩
  | .hbm, ⟨16, _⟩ => ⟨S8192x6x2048, .f32⟩
  | .hbm, ⟨17, _⟩ => ⟨S8192x6x2048, .f32⟩
  | .hbm, ⟨18, _⟩ => ⟨S8192x6x2048, .f32⟩
  | .hbm, ⟨19, _⟩ => ⟨S8192x5x2048, .f32⟩
  | .hbm, ⟨20, _⟩ => ⟨S1x2048, .f32⟩
  | .hbm, ⟨21, _⟩ => ⟨S2048, .f32⟩
  | .hbm, ⟨22, _⟩ => ⟨S1x1x2048, .f32⟩
  | .hbm, ⟨23, _⟩ => ⟨S8192x5x2048, .f32⟩
  | .hbm, ⟨24, _⟩ => ⟨S8192x5x2048, .f32⟩
  | .hbm, ⟨25, _⟩ => ⟨S8192x5x2048, .f32⟩
  | .hbm, ⟨26, _⟩ => ⟨S1x2048, .f32⟩
  | .hbm, ⟨27, _⟩ => ⟨S2048, .f32⟩
  | .hbm, ⟨28, _⟩ => ⟨S1x1x2048, .f32⟩
  | .hbm, ⟨29, _⟩ => ⟨S8192x5x2048, .f32⟩
  | .hbm, ⟨30, _⟩ => ⟨S8192x5x2048, .f32⟩
  | .hbm, ⟨31, _⟩ => ⟨S8192x5x2048, .f32⟩
  | .hbm, ⟨32, _⟩ => ⟨S8192x5x2048, .f32⟩
  | .hbm, ⟨33, _⟩ => ⟨S8192x3x2048, .f32⟩
  | .hbm, ⟨34, _⟩ => ⟨S1x2048, .f32⟩
  | .hbm, ⟨35, _⟩ => ⟨S2048, .f32⟩
  | .hbm, ⟨36, _⟩ => ⟨S1x1x2048, .f32⟩
  | .hbm, ⟨37, _⟩ => ⟨S8192x3x2048, .f32⟩
  | .hbm, ⟨38, _⟩ => ⟨S8192x3x2048, .f32⟩
  | .hbm, ⟨39, _⟩ => ⟨S8192x3x2048, .f32⟩
  | .hbm, ⟨40, _⟩ => ⟨S1x2048, .f32⟩
  | .hbm, ⟨41, _⟩ => ⟨S2048, .f32⟩
  | .hbm, ⟨42, _⟩ => ⟨S1x1x2048, .f32⟩
  | .hbm, ⟨43, _⟩ => ⟨S8192x3x2048, .f32⟩
  | .hbm, ⟨44, _⟩ => ⟨S8192x3x2048, .f32⟩
  | .hbm, ⟨45, _⟩ => ⟨S8192x3x2048, .f32⟩
  | .hbm, ⟨46, _⟩ => ⟨S8192x3x2048, .f32⟩
  | .hbm, ⟨47, _⟩ => ⟨S1x2048, .f32⟩
  | .hbm, ⟨48, _⟩ => ⟨S2048, .f32⟩
  | .hbm, ⟨49, _⟩ => ⟨S1x1x2048, .f32⟩
  | .hbm, ⟨50, _⟩ => ⟨S8192x3x2048, .f32⟩
  | .hbm, ⟨51, _⟩ => ⟨S8192x3x2048, .f32⟩
  | .hbm, ⟨52, _⟩ => ⟨S8192x3x2048, .f32⟩
  | .hbm, ⟨53, _⟩ => ⟨S8192x3x2048, .f32⟩
  | .hbm, ⟨54, _⟩ => ⟨S8192x1x2048, .f32⟩
  | .hbm, ⟨55, _⟩ => ⟨S1x2048, .f32⟩
  | .hbm, ⟨56, _⟩ => ⟨S2048, .f32⟩
  | .hbm, ⟨57, _⟩ => ⟨S1x1x2048, .f32⟩
  | .hbm, ⟨58, _⟩ => ⟨S8192x1x2048, .f32⟩
  | .hbm, ⟨59, _⟩ => ⟨S8192x1x2048, .f32⟩
  | .hbm, ⟨60, _⟩ => ⟨S8192x1x2048, .f32⟩
  | .hbm, ⟨61, _⟩ => ⟨S1x2048, .f32⟩
  | .hbm, ⟨62, _⟩ => ⟨S2048, .f32⟩
  | .hbm, ⟨63, _⟩ => ⟨S1x1x2048, .f32⟩
  | .hbm, ⟨64, _⟩ => ⟨S8192x1x2048, .f32⟩
  | .hbm, ⟨65, _⟩ => ⟨S8192x1x2048, .f32⟩
  | .hbm, ⟨66, _⟩ => ⟨S8192x1x2048, .f32⟩
  | .hbm, ⟨67, _⟩ => ⟨S8192x1x2048, .f32⟩
  | .hbm, ⟨68, _⟩ => ⟨S1x2048, .f32⟩
  | .hbm, ⟨69, _⟩ => ⟨S2048, .f32⟩
  | .hbm, ⟨70, _⟩ => ⟨S1x1x2048, .f32⟩
  | .hbm, ⟨71, _⟩ => ⟨S8192x1x2048, .f32⟩
  | .hbm, ⟨72, _⟩ => ⟨S8192x1x2048, .f32⟩
  | .hbm, ⟨73, _⟩ => ⟨S8192x1x2048, .f32⟩
  | .hbm, ⟨74, _⟩ => ⟨S8192x1x2048, .f32⟩
  | .hbm, ⟨75, _⟩ => ⟨S8192x2048, .f32⟩
  | _, _ => ⟨S8192x7x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩

abbrev nD : Nat := 1
abbrev τ : Topo := Topo.v7x

variable {F : FTy → Type} [FloatOps F]

class Facts₀ : Prop where
  slices_S8192x7x2048_S8192x6x2048_0_0_0 : S8192x7x2048.Slices ![0, 0, 0] S8192x6x2048
  slices_S2x2048_S1x2048_0_0 : S2x2048.Slices ![0, 0] S1x2048
  shapeCasts_S1x2048_S2048 : S1x2048.ShapeCasts S2048
  bcast_S2048_S1x1x2048_2 : S2048.BroadcastsInDim S1x1x2048 (![2] : Fin 1 → Fin S1x1x2048.rank)
  bcast_S1x1x2048_S8192x6x2048_0_1_2 : S1x1x2048.BroadcastsInDim S8192x6x2048 (![0, 1, 2] : Fin 3 → Fin S8192x6x2048.rank)
  slices_S8192x7x2048_S8192x6x2048_0_1_0 : S8192x7x2048.Slices ![0, 1, 0] S8192x6x2048
  slices_S2x2048_S1x2048_1_0 : S2x2048.Slices ![1, 0] S1x2048
  slices_S8192x6x2048_S8192x5x2048_0_0_0 : S8192x6x2048.Slices ![0, 0, 0] S8192x5x2048
  bcast_S1x1x2048_S8192x5x2048_0_1_2 : S1x1x2048.BroadcastsInDim S8192x5x2048 (![0, 1, 2] : Fin 3 → Fin S8192x5x2048.rank)
  slices_S8192x6x2048_S8192x5x2048_0_1_0 : S8192x6x2048.Slices ![0, 1, 0] S8192x5x2048
  slices_S8192x5x2048_S8192x3x2048_0_0_0 : S8192x5x2048.Slices ![0, 0, 0] S8192x3x2048
  slices_S3x2048_S1x2048_0_0 : S3x2048.Slices ![0, 0] S1x2048
  bcast_S1x1x2048_S8192x3x2048_0_1_2 : S1x1x2048.BroadcastsInDim S8192x3x2048 (![0, 1, 2] : Fin 3 → Fin S8192x3x2048.rank)
  slices_S8192x5x2048_S8192x3x2048_0_1_0 : S8192x5x2048.Slices ![0, 1, 0] S8192x3x2048
  slices_S3x2048_S1x2048_1_0 : S3x2048.Slices ![1, 0] S1x2048
  slices_S8192x5x2048_S8192x3x2048_0_2_0 : S8192x5x2048.Slices ![0, 2, 0] S8192x3x2048
  slices_S3x2048_S1x2048_2_0 : S3x2048.Slices ![2, 0] S1x2048
  slices_S8192x3x2048_S8192x1x2048_0_0_0 : S8192x3x2048.Slices ![0, 0, 0] S8192x1x2048
  bcast_S1x1x2048_S8192x1x2048_0_1_2 : S1x1x2048.BroadcastsInDim S8192x1x2048 (![0, 1, 2] : Fin 3 → Fin S8192x1x2048.rank)
  slices_S8192x3x2048_S8192x1x2048_0_1_0 : S8192x3x2048.Slices ![0, 1, 0] S8192x1x2048
  slices_S8192x3x2048_S8192x1x2048_0_2_0 : S8192x3x2048.Slices ![0, 2, 0] S8192x1x2048
  shapeCasts_S8192x1x2048_S8192x2048 : S8192x1x2048.ShapeCasts S8192x2048

variable [Facts₀]

class Facts : Prop extends Facts₀ where

variable [Facts]
-- ==== Proof.SlidingChain.lean ====
/-
  The function both programs compute.

  Fix a batch row `b` and a feature `e`. Along the sentence axis the input is a sequence of 7 extended reals.
  One LAYER slides a window of width 2 or 3 along such a sequence, multiplies each entry under the window by that
  layer's weight for the window position, adds the products from left to right, and applies `tanh`:
      out j = tanh (a j * w 0 + a (j+1) * w 1)                     (width 2: n+1 entries -> n)
      out j = tanh ((a j * w 0 + a (j+1) * w 1) + a (j+2) * w 2)   (width 3: n+2 entries -> n)
  Four layers of widths 2, 2, 3, 3 shorten the sequence 7 -> 6 -> 5 -> 3 -> 1, and the one entry left is the result
  at `(b, e)`. Nothing is reassociated or distributed, so no finiteness is needed: the two programs are this same
  expression tree, laid out differently in memory.
-/
import Idealize.ShloMosaic.PureOps.Ideal
import Idealize.ShloMosaic.Lib.ValueIdx

noncomputable section

namespace Cert.Sliding

open Idealize.ShloMosaic Idealize.ShloMosaic.ValueIdx

/-- One layer of window width 2: entry `j` of the shorter sequence from entries `j`, `j+1` of the longer one. -/
def slide2 {n : ℕ} (w : Fin 2 → EReal) (a : Fin (n + 1) → EReal) (j : Fin n) : EReal :=
  Ideal.tanh (a j.castSucc * w 0 + a j.succ * w 1)

/-- One layer of window width 3: entry `j` from entries `j`, `j+1`, `j+2`, the products added left to right. -/
def slide3 {n : ℕ} (w : Fin 3 → EReal) (a : Fin (n + 2) → EReal) (j : Fin n) : EReal :=
  Ideal.tanh (a j.castSucc.castSucc * w 0 + a j.succ.castSucc * w 1 + a j.succ.succ * w 2)

/-- The four layers on one sequence of 7 entries: 7 -> 6 -> 5 -> 3 -> 1. -/
def chain (x : Fin 7 → EReal) (w1 w2 : Fin 2 → EReal) (w3 w4 : Fin 3 → EReal) : EReal :=
  slide3 (n := 1) w4 (slide3 (n := 3) w3 (slide2 (n := 5) w2 (slide2 (n := 6) w1 x))) 0

/-- The result at batch row `b` and feature `e`: the chain on the sentence axis of `X` at `(b, ·, e)`, each layer's
    weights being that layer's array at feature `e`. -/
def entry (X : (⟨3, ![8192, 7, 2048]⟩ : Shape).Idx → EReal) (c1 c2 : (⟨2, ![2, 2048]⟩ : Shape).Idx → EReal)
    (c3 c4 : (⟨2, ![3, 2048]⟩ : Shape).Idx → EReal) (b : Fin 8192) (e : Fin 2048) : EReal :=
  chain (fun s => X (ix3 b s e)) (fun k => c1 (ix2 k e)) (fun k => c2 (ix2 k e)) (fun k => c3 (ix2 k e)) (fun k => c4 (ix2 k e))

/-- The whole result array. -/
def G (X : (⟨3, ![8192, 7, 2048]⟩ : Shape).Idx → EReal) (c1 c2 : (⟨2, ![2, 2048]⟩ : Shape).Idx → EReal)
    (c3 c4 : (⟨2, ![3, 2048]⟩ : Shape).Idx → EReal) : (⟨2, ![8192, 2048]⟩ : Shape).Idx → EReal :=
  fun i => entry X c1 c2 c3 c4 (i 0) (i 1)

/-- A rank-2 index is determined by its two coordinates. -/
theorem ix2_ext {n0 n1 : ℕ} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

/-- A rank-3 index is determined by its three coordinates. -/
theorem ix3_ext {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext d
  match d with
  | ⟨0, _⟩ => exact Fin.ext h0
  | ⟨1, _⟩ => exact Fin.ext h1
  | ⟨2, _⟩ => exact Fin.ext h2

end Cert.Sliding

end
-- ==== Proof.BlockChain.lean ====
/-
  What one grid point's body stores, at one element of its block.

  The body loads seven slabs of its input block — the columns `s * 2048 … s * 2048 + 2047`, one per sentence position
  `s` — and the ten weight rows. Every operation after the loads is pointwise on `[256, 2048]` vectors, a weight row
  first broadcast over the 256 rows. So at row `p` and column `q` of the block the stored value depends only on the
  seven slabs at `(p, q)` and the ten weight rows at `q`, and it is the sliding chain on them.
-/
import proofs.«112829_j62216896250027_2_alg».proof.Proof.Gen.KernelIdeal.Skeleton
import proofs.«112829_j62216896250027_2_alg».proof.Proof.SlidingChain
import Idealize.ShloMosaic.Lib.Pipeline.Value
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.ValueIdx Cert.Sliding

/-- `tanh` of a vector, read at an index. -/
theorem tanh_apply {s : Shape} {φ : FTy} (a : FVec Ideal s φ) (i : s.Idx) : tanh a i = Ideal.tanh (a i) := rfl

/-- A flat row `[2048]` given a unit leading axis and broadcast over 256 rows reads, at `(p, q)`, the row at `q`. -/
theorem bcastRow (v : FVec Ideal S2048 .f32) (p : Fin 256) (q : Fin 2048) :
    broadcastTo S256x2048 (shapeCast S1x2048 v shapeCasts_S2048_S1x2048) broadcasts_S1x2048_S256x2048 (ix2 p q)
      = v (ix1 q) :=
  (broadcastTo_1b_ab_apply _ broadcasts_S1x2048_S256x2048 p q).trans
    (shapeCast_a_1a_apply v shapeCasts_S2048_S1x2048 0 q)

/-- A loaded weight row `[1, 2048]` flattened to `[2048]` reads, at `q`, the row at `(0, q)`. -/
theorem flatRow {α : Type} (w : S1x2048.Idx → α) (q : Fin 2048) :
    shapeCast S2048 w shapeCasts_S1x2048_S2048 (ix1 q) = w (ix2 (0 : Fin 1) q) :=
  shapeCast_1a_a_apply w shapeCasts_S1x2048_S2048 q

/-- The stored value at `(p, q)`: the chain on the seven slabs `x0 … x6` at `(p, q)`, the layers' weights the rows
    `a` (layer 1), `b` (layer 2), `c` (layer 3), `d` (layer 4) at `(0, q)`. -/
theorem stored_apply (x0 x1 x2 x3 x4 x5 x6 : Vec Ideal S256x2048 .f32)
    (a0 a1 b0 b1 c0 c1 c2 d0 d1 d2 : Vec Ideal S1x2048 .f32) (p : Fin 256) (q : Fin 2048) :
    (k0_pay1 (k0_pay27 (k0_pay19 (k0_pay10 x0 x1 a0 a1) (k0_pay11 x1 x2 a0 a1) b0 b1) (k0_pay20 (k0_pay11 x1 x2 a0 a1) (k0_pay12 x2 x3 a0 a1) b0 b1) (k0_pay21 (k0_pay4 x3) (k0_pay5 x4) (k0_pay8 a0) (k0_pay9 a1) (k0_pay12 x2 x3 a0 a1) b0 b1) c0 c1 c2) (k0_pay28 (k0_pay15 (k0_pay5 x4) (k0_pay6 x5) (k0_pay8 a0) (k0_pay9 a1)) (k0_pay18 b1) (k0_pay20 (k0_pay11 x1 x2 a0 a1) (k0_pay12 x2 x3 a0 a1) b0 b1) (k0_pay21 (k0_pay4 x3) (k0_pay5 x4) (k0_pay8 a0) (k0_pay9 a1) (k0_pay12 x2 x3 a0 a1) b0 b1) (k0_pay22 (k0_pay4 x3) (k0_pay5 x4) (k0_pay8 a0) (k0_pay9 a1) b0) c0 c1 c2) (k0_pay29 (k0_pay15 (k0_pay5 x4) (k0_pay6 x5) (k0_pay8 a0) (k0_pay9 a1)) (k0_pay16 (k0_pay6 x5) (k0_pay7 x6) (k0_pay8 a0) (k0_pay9 a1)) (k0_pay17 b0) (k0_pay18 b1) (k0_pay21 (k0_pay4 x3) (k0_pay5 x4) (k0_pay8 a0) (k0_pay9 a1) (k0_pay12 x2 x3 a0 a1) b0 b1) (k0_pay22 (k0_pay4 x3) (k0_pay5 x4) (k0_pay8 a0) (k0_pay9 a1) b0) c0 c1 c2) d0 d1 d2) (ix2 p q)
      = chain ![x0 (ix2 p q), x1 (ix2 p q), x2 (ix2 p q), x3 (ix2 p q), x4 (ix2 p q), x5 (ix2 p q), x6 (ix2 p q)]
          ![a0 (ix2 0 q), a1 (ix2 0 q)] ![b0 (ix2 0 q), b1 (ix2 0 q)]
          ![c0 (ix2 0 q), c1 (ix2 0 q), c2 (ix2 0 q)] ![d0 (ix2 0 q), d1 (ix2 0 q), d2 (ix2 0 q)] := by
  simp only [k0_pay1, k0_pay27, k0_pay28, k0_pay29, k0_pay19, k0_pay20, k0_pay21, k0_pay22, k0_pay23,
    k0_pay10, k0_pay11, k0_pay12, k0_pay13, k0_pay14, k0_pay15, k0_pay16, k0_pay2, k0_pay3, k0_pay4, k0_pay5,
    k0_pay6, k0_pay7, k0_pay8, k0_pay9, k0_pay17, k0_pay18, k0_pay24, k0_pay25, k0_pay26,
    tanh_apply, mulf_apply, addf_apply, bcastRow, flatRow, shapeCast_self]
  rfl

end Cert.KernelIdeal.Block

end
-- ==== Proof.KernelArray.lean ====
/-
  From blocks to the whole array.

  Grid point `t` (of 32) works on batch rows `256 t … 256 t + 255`. Its input block is those rows of the input with
  the sentence and feature axes merged into one axis of length `7 * 2048`: column `s * 2048 + e` of the block is
  sentence position `s`, feature `e`. So the slab the body loads at column offset `s * 2048` is, at `(p, q)`, the
  input at `(256 t + p, s, q)`; the weight windows are the whole weight arrays at every point. With the stored value
  at `(p, q)` the chain on these (the block-value module), point `t` writes back rows `256 t …` of `G`, and the 32
  blocks tile the `[8192, 2048]` result, which therefore ends as `G` of the argument arrays.
-/
import proofs.«112829_j62216896250027_2_alg».proof.Proof.Gen.KernelIdeal.Frame
import proofs.«112829_j62216896250027_2_alg».proof.Proof.BlockChain
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Block Idealize.ShloMosaic Idealize.ShloMosaic.TcCoe
open Idealize.SL.Sem Idealize.ShloMosaic.ValueIdx Cert.Sliding
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block indices, decided over the 32 grid points: the input and the output move down the batch axis with the
    point, and every weight window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the region finds in the input window's array: the input with its last two axes merged. -/
theorem entry_merged (c : Dev nD) :
    (V m c main_v0 : S8192x14336.Idx → Elt Ideal .f32)
      = shapeCast S8192x14336 (m ((c : Thread nD τ).loc main_arg0) : S8192x7x2048.Idx → Elt Ideal .f32) shapeCasts_S8192x7x2048_S8192x14336 := by
  dsimp only [V, hostOps0]; after_results; rfl

/-! ## The blocks of a point, read as entries of the argument arrays -/

/-- The input block at point `t`, at row `y 0` and merged column `y 1 = s * 2048 + e`, is the input at batch row
    `256 t + y 0`, sentence position `s`, feature `e`. -/
theorem xblk_apply (c : Dev nD) (t : Fin cfg0.N) (y : S256x14336.Idx) (b : Fin 8192) (s : Fin 7) (e : Fin 2048)
    (hb : b.val = t.val * 256 + (y 0).val) (hy : (y 1).val = s.val * 2048 + e.val) :
    (iblk m c 0 t : Vec Ideal S256x14336 .f32) y = (m ((c : Thread nD τ).loc main_arg0) : S8192x7x2048.Idx → Elt Ideal .f32) (ix3 b s e) := by
  obtain ⟨h0, h1, -⟩ := idx_facts t
  unfold iblk
  rw [View.read_apply]
  show V m c main_v0 (((cfg0.win 0).blk t).view.emb y) = _
  rw [entry_merged]
  refine shapeCast_apply _ _ _ _ ?_
  show (S8192x7x2048.rowMajor (ix3 b s e)).val = (S8192x14336.rowMajor (((cfg0.win 0).blk t).view.emb y)).val
  rw [Shape.rowMajor_val_three, Shape.rowMajor_val_two]
  show (b.val * 7 + s.val) * 2048 + e.val
    = (win0_0.index t (0 : Fin 2) * 256 + 1 * (y 0).val) * 14336 + (win0_0.index t (1 : Fin 2) * 14336 + 1 * (y 1).val)
  rw [h0, h1, hb, hy]; omega

/-- The slab loaded at column offset `o = s * 2048`, at `(p, q)`: the input at `(256 t + p, s, q)`. -/
theorem slab_apply (c : Dev nD) (t : Fin cfg0.N) (s : Fin 7) (o : ℕ) (ho : o = s.val * 2048)
    (inb : ∀ a, (![0, o] : Fin 2 → ℕ) a + S256x2048.size a ≤ S256x14336.size a)
    (p : Fin 256) (q : Fin 2048) (b : Fin 8192) (hb : b.val = t.val * 256 + p.val) :
    View.ld (iblk m c 0 t : Vec Ideal S256x14336 .f32) (Rect.unit (s := S256x14336) ![0, o] S256x2048.size inb) (ix2 p q)
      = (m ((c : Thread nD τ).loc main_arg0) : S8192x7x2048.Idx → Elt Ideal .f32) (ix3 b s q) :=
  xblk_apply m c t _ b s q
    (by show b.val = t.val * 256 + (0 + 1 * p.val); omega)
    (by show o + 1 * q.val = s.val * 2048 + q.val; omega)

/-- Layer 1's weight window at any point is the whole array: its row `k`, loaded at row offset `o = k`, at `(0, q)`. -/
theorem wrow1_apply (c : Dev nD) (t : Fin cfg0.N) (k : Fin 2) (o : ℕ) (ho : o = k.val)
    (inb : ∀ a, (![o, 0] : Fin 2 → ℕ) a + S1x2048.size a ≤ S2x2048.size a) (q : Fin 2048) :
    View.ld (iblk m c 1 t : Vec Ideal S2x2048 .f32) (Rect.unit (s := S2x2048) ![o, 0] S1x2048.size inb) (ix2 (0 : Fin 1) q)
      = (m ((c : Thread nD τ).loc main_arg1) : S2x2048.Idx → Elt Ideal .f32) (ix2 k q) := by
  obtain ⟨-, -, h0, h1, -⟩ := idx_facts t
  show (iblk m c 1 t : Vec Ideal S2x2048 .f32) _ = _
  unfold iblk
  rw [View.read_apply]
  show V m c main_arg1 (((cfg0.win 1).blk t).view.emb _) = _
  rw [V_main_arg1]
  refine congrArg (m ((c : Thread nD τ).loc main_arg1) : S2x2048.Idx → Elt Ideal .f32) (ix2_ext _ _ _ ?_ ?_)
  · show win0_1.index t (0 : Fin 2) * 2 + 1 * (o + 1 * 0) = k.val; rw [h0]; omega
  · show win0_1.index t (1 : Fin 2) * 2048 + 1 * (0 + 1 * q.val) = q.val; rw [h1]; omega

/-- Layer 2's weight row `k` at `(0, q)`. -/
theorem wrow2_apply (c : Dev nD) (t : Fin cfg0.N) (k : Fin 2) (o : ℕ) (ho : o = k.val)
    (inb : ∀ a, (![o, 0] : Fin 2 → ℕ) a + S1x2048.size a ≤ S2x2048.size a) (q : Fin 2048) :
    View.ld (iblk m c 2 t : Vec Ideal S2x2048 .f32) (Rect.unit (s := S2x2048) ![o, 0] S1x2048.size inb) (ix2 (0 : Fin 1) q)
      = (m ((c : Thread nD τ).loc main_arg2) : S2x2048.Idx → Elt Ideal .f32) (ix2 k q) := by
  obtain ⟨-, -, -, -, h0, h1, -⟩ := idx_facts t
  show (iblk m c 2 t : Vec Ideal S2x2048 .f32) _ = _
  unfold iblk
  rw [View.read_apply]
  show V m c main_arg2 (((cfg0.win 2).blk t).view.emb _) = _
  rw [V_main_arg2]
  refine congrArg (m ((c : Thread nD τ).loc main_arg2) : S2x2048.Idx → Elt Ideal .f32) (ix2_ext _ _ _ ?_ ?_)
  · show win0_2.index t (0 : Fin 2) * 2 + 1 * (o + 1 * 0) = k.val; rw [h0]; omega
  · show win0_2.index t (1 : Fin 2) * 2048 + 1 * (0 + 1 * q.val) = q.val; rw [h1]; omega

/-- Layer 3's weight row `k` at `(0, q)`. -/
theorem wrow3_apply (c : Dev nD) (t : Fin cfg0.N) (k : Fin 3) (o : ℕ) (ho : o = k.val)
    (inb : ∀ a, (![o, 0] : Fin 2 → ℕ) a + S1x2048.size a ≤ S3x2048.size a) (q : Fin 2048) :
    View.ld (iblk m c 3 t : Vec Ideal S3x2048 .f32) (Rect.unit (s := S3x2048) ![o, 0] S1x2048.size inb) (ix2 (0 : Fin 1) q)
      = (m ((c : Thread nD τ).loc main_arg3) : S3x2048.Idx → Elt Ideal .f32) (ix2 k q) := by
  obtain ⟨-, -, -, -, -, -, h0, h1, -⟩ := idx_facts t
  show (iblk m c 3 t : Vec Ideal S3x2048 .f32) _ = _
  unfold iblk
  rw [View.read_apply]
  show V m c main_arg3 (((cfg0.win 3).blk t).view.emb _) = _
  rw [V_main_arg3]
  refine congrArg (m ((c : Thread nD τ).loc main_arg3) : S3x2048.Idx → Elt Ideal .f32) (ix2_ext _ _ _ ?_ ?_)
  · show win0_3.index t (0 : Fin 2) * 3 + 1 * (o + 1 * 0) = k.val; rw [h0]; omega
  · show win0_3.index t (1 : Fin 2) * 2048 + 1 * (0 + 1 * q.val) = q.val; rw [h1]; omega

/-- Layer 4's weight row `k` at `(0, q)`. -/
theorem wrow4_apply (c : Dev nD) (t : Fin cfg0.N) (k : Fin 3) (o : ℕ) (ho : o = k.val)
    (inb : ∀ a, (![o, 0] : Fin 2 → ℕ) a + S1x2048.size a ≤ S3x2048.size a) (q : Fin 2048) :
    View.ld (iblk m c 4 t : Vec Ideal S3x2048 .f32) (Rect.unit (s := S3x2048) ![o, 0] S1x2048.size inb) (ix2 (0 : Fin 1) q)
      = (m ((c : Thread nD τ).loc main_arg4) : S3x2048.Idx → Elt Ideal .f32) (ix2 k q) := by
  obtain ⟨-, -, -, -, -, -, -, -, h0, h1, -⟩ := idx_facts t
  show (iblk m c 4 t : Vec Ideal S3x2048 .f32) _ = _
  unfold iblk
  rw [View.read_apply]
  show V m c main_arg4 (((cfg0.win 4).blk t).view.emb _) = _
  rw [V_main_arg4]
  refine congrArg (m ((c : Thread nD τ).loc main_arg4) : S3x2048.Idx → Elt Ideal .f32) (ix2_ext _ _ _ ?_ ?_)
  · show win0_4.index t (0 : Fin 2) * 3 + 1 * (o + 1 * 0) = k.val; rw [h0]; omega
  · show win0_4.index t (1 : Fin 2) * 2048 + 1 * (0 + 1 * q.val) = q.val; rw [h1]; omega

/-! ## What a point writes back -/

/-- The body's one store covers its buffer, so the buffer holds the stored value: at `(p, q)`, the chain on the
    seven loaded slabs and the ten loaded weight rows. -/
theorem out_apply (x0 : Vec Ideal S256x14336 .f32) (x1 x2 : Vec Ideal S2x2048 .f32) (x3 x4 : Vec Ideal S3x2048 .f32)
    (p : Fin 256) (q : Fin 2048) :
    out0_5 x0 x1 x2 x3 x4 (ix2 p q)
      = chain ![View.ld x0 r0_0 (ix2 p q), View.ld x0 r0_1 (ix2 p q), View.ld x0 r0_2 (ix2 p q), View.ld x0 r0_3 (ix2 p q),
            View.ld x0 r0_4 (ix2 p q), View.ld x0 r0_5 (ix2 p q), View.ld x0 r0_6 (ix2 p q)]
          ![View.ld x1 r0_7 (ix2 0 q), View.ld x1 r0_8 (ix2 0 q)] ![View.ld x2 r0_7 (ix2 0 q), View.ld x2 r0_8 (ix2 0 q)]
          ![View.ld x3 r0_9 (ix2 0 q), View.ld x3 r0_10 (ix2 0 q), View.ld x3 r0_11 (ix2 0 q)]
          ![View.ld x4 r0_9 (ix2 0 q), View.ld x4 r0_10 (ix2 0 q), View.ld x4 r0_11 (ix2 0 q)] := by
  unfold out0_5
  rw [View.canon_unit_zero hz]
  exact stored_apply _ _ _ _ _ _ _ _ _ _ _ _ _ _ _ _ _ p q

/-- The chain's inputs listed: the entry of `G` at `(b, e)` is the chain on the seven sentence positions of the input
    at `(b, ·, e)` and the weight rows at `e`. -/
theorem entry_list (X : S8192x7x2048.Idx → EReal) (c1 c2 : S2x2048.Idx → EReal) (c3 c4 : S3x2048.Idx → EReal)
    (b : Fin 8192) (e : Fin 2048) :
    entry X c1 c2 c3 c4 b e
      = chain ![X (ix3 b 0 e), X (ix3 b 1 e), X (ix3 b 2 e), X (ix3 b 3 e), X (ix3 b 4 e), X (ix3 b 5 e), X (ix3 b 6 e)]
          ![c1 (ix2 0 e), c1 (ix2 1 e)] ![c2 (ix2 0 e), c2 (ix2 1 e)]
          ![c3 (ix2 0 e), c3 (ix2 1 e), c3 (ix2 2 e)] ![c4 (ix2 0 e), c4 (ix2 1 e), c4 (ix2 2 e)] := by
  unfold entry
  congr 1 <;> (funext s; fin_cases s <;> rfl)

/-- WHAT POINT `t` WRITES BACK is block `t` of `G` of the argument arrays. -/
theorem flushed_eq (c : Dev nD) (t : Fin cfg0.N) :
    (dats m 0 c).flushed 5 t = ((cfg0.win 5).blk t).view.read (Elt Ideal)
      (G (m ((c : Thread nD τ).loc main_arg0) : S8192x7x2048.Idx → Elt Ideal .f32) (m ((c : Thread nD τ).loc main_arg1) : S2x2048.Idx → Elt Ideal .f32) (m ((c : Thread nD τ).loc main_arg2) : S2x2048.Idx → Elt Ideal .f32) (m ((c : Thread nD τ).loc main_arg3) : S3x2048.Idx → Elt Ideal .f32) (m ((c : Thread nD τ).loc main_arg4) : S3x2048.Idx → Elt Ideal .f32)) := by
  show (cfg0.win 5).cut (grid0.coords t) ((dats m 0 c).after 5 t) = _
  rw [after0_5]
  funext y
  obtain ⟨p, q, rfl⟩ : ∃ (p : Fin 256) (q : Fin 2048), y = ix2 p q := ⟨y 0, y 1, eq_ix2 y⟩
  have hp : p.val < 256 := p.isLt
  have ht : t.val < 32 := t.isLt
  obtain ⟨b, hb⟩ : ∃ b : Fin 8192, b.val = t.val * 256 + p.val := ⟨⟨t.val * 256 + p.val, by omega⟩, rfl⟩
  obtain ⟨-, -, -, -, -, -, -, -, -, -, e0, e1⟩ := idx_facts t
  have hi : ((cfg0.win 5).blk t).view.emb (ix2 p q) = (ix2 b q : S8192x2048.Idx) :=
    ix2_ext _ _ _
      (by show win0_5.index t (0 : Fin 2) * 256 + 1 * p.val = b.val; rw [e0, hb]; omega)
      (by show win0_5.index t (1 : Fin 2) * 2048 + 1 * q.val = q.val; rw [e1]; omega)
  show out0_5 (iblk m c 0 t) (iblk m c 1 t) (iblk m c 2 t) (iblk m c 3 t) (iblk m c 4 t) (ix2 p q)
    = G (m ((c : Thread nD τ).loc main_arg0) : S8192x7x2048.Idx → Elt Ideal .f32) (m ((c : Thread nD τ).loc main_arg1) : S2x2048.Idx → Elt Ideal .f32) (m ((c : Thread nD τ).loc main_arg2) : S2x2048.Idx → Elt Ideal .f32) (m ((c : Thread nD τ).loc main_arg3) : S3x2048.Idx → Elt Ideal .f32) (m ((c : Thread nD τ).loc main_arg4) : S3x2048.Idx → Elt Ideal .f32) (((cfg0.win 5).blk t).view.emb (ix2 p q))
  rw [hi, out_apply,
    slab_apply m c t 0 0 rfl _ p q b hb, slab_apply m c t 1 2048 rfl _ p q b hb, slab_apply m c t 2 4096 rfl _ p q b hb,
    slab_apply m c t 3 6144 rfl _ p q b hb, slab_apply m c t 4 8192 rfl _ p q b hb, slab_apply m c t 5 10240 rfl _ p q b hb,
    slab_apply m c t 6 12288 rfl _ p q b hb,
    wrow1_apply m c t 0 0 rfl _ q, wrow1_apply m c t 1 1 rfl _ q, wrow2_apply m c t 0 0 rfl _ q, wrow2_apply m c t 1 1 rfl _ q,
    wrow3_apply m c t 0 0 rfl _ q, wrow3_apply m c t 1 1 rfl _ q, wrow3_apply m c t 2 2 rfl _ q,
    wrow4_apply m c t 0 0 rfl _ q, wrow4_apply m c t 1 1 rfl _ q, wrow4_apply m c t 2 2 rfl _ q]
  exact (entry_list _ _ _ _ _ b q).symm

/-! ## The whole array, and the run -/

/-- An index of the result is in point `t`'s block iff each coordinate is in the block's range on its axis. -/
theorem mem_blk (t : Fin cfg0.N) (i : S8192x2048.Idx) :
    i ∈ ((cfg0.win 5).blk t).view.set ↔ ∀ a : Fin 2, win0_5.index t a * S256x2048.size a ≤ (i a).val
      ∧ (i a).val < win0_5.index t a * S256x2048.size a + S256x2048.size a := by
  show i ∈ ((View.whole main_v1).slice (win0_5.rect t)).set ↔ _
  rw [View.set_slice_whole, Rect.mem_set_unit]
  exact Iff.rfl

/-- The 32 blocks tile the result: row `r` is in the block of point `r / 256`. -/
theorem cover (i : S8192x2048.Idx) :
    ∃ t : Fin cfg0.N, (cfg0.win 5).flush t = true ∧ i ∈ ((cfg0.win 5).blk t).view.set := by
  have h0 : (i 0).val < 8192 := (i 0).isLt
  have h1 : (i 1).val < 2048 := (i 1).isLt
  obtain ⟨t, ht⟩ : ∃ t : Fin cfg0.N, t.val = (i 0).val / 256 :=
    ⟨⟨(i 0).val / 256, by show (i 0).val / 256 < 32; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 256 ≤ (i 0).val ∧ (i 0).val < win0_5.index t (0 : Fin 2) * 256 + 256
    rw [e0, ht]; omega
  | ⟨1, _⟩ =>
    show win0_5.index t (1 : Fin 2) * 2048 ≤ (i 1).val ∧ (i 1).val < win0_5.index t (1 : Fin 2) * 2048 + 2048
    rw [e1]; omega

/-- THE RESULT ARRAY after the run is `G` of the argument arrays. -/
theorem final (c : Dev nD) :
    (dats m 0 c).arrAt 5 cfg0.N = G (m ((c : Thread nD τ).loc main_arg0) : S8192x7x2048.Idx → Elt Ideal .f32) (m ((c : Thread nD τ).loc main_arg1) : S2x2048.Idx → Elt Ideal .f32) (m ((c : Thread nD τ).loc main_arg2) : S2x2048.Idx → Elt Ideal .f32) (m ((c : Thread nD τ).loc main_arg3) : S3x2048.Idx → Elt Ideal .f32) (m ((c : Thread nD τ).loc main_arg4) : S3x2048.Idx → Elt Ideal .f32) :=
  (dats m 0 c).arrAt_eq_of_cover 5 _ (fun t _ => flushed_eq m c t) cover

/-- The run, read: the result array at `G` of the arguments, the arguments unchanged (the input is staged by no
    window; each weight array is staged by an input window that never writes back). -/
theorem run : θ_run defs (onTc (τ := τ) (main (F := Ideal))) ⟨m, fun _ => 0, ρ⟩ fun r => ∀ c : Dev nD,
      r.2.mem ((c : Thread nD τ).loc main_v1) = G (m ((c : Thread nD τ).loc main_arg0) : S8192x7x2048.Idx → Elt Ideal .f32) (m ((c : Thread nD τ).loc main_arg1) : S2x2048.Idx → Elt Ideal .f32) (m ((c : Thread nD τ).loc main_arg2) : S2x2048.Idx → Elt Ideal .f32) (m ((c : Thread nD τ).loc main_arg3) : S3x2048.Idx → Elt Ideal .f32) (m ((c : Thread nD τ).loc main_arg4) : S3x2048.Idx → Elt Ideal .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Whole

end
-- ==== Proof.RefLayers.lean ====
/-
  The reference computes the sliding chain, one layer at a time.

  Each layer of the reference is a full array: `tanh` of the sum of products of sentence-axis slices of the previous
  layer's array (offsets 0, 1 and, for width 3, 2) with that layer's weight rows, each row broadcast over the batch
  and sentence axes. Read at `(b, j, e)`, such a product is the previous layer at `(b, j + offset, e)` times the
  weight row at `e`; so every layer's array at `(b, ·, e)` is one `slide2` / `slide3` of the previous layer's array
  at `(b, ·, e)`, and the final reshape `[8192, 1, 2048] -> [8192, 2048]` reads `(b, e)` at `(b, 0, e)`.
-/
import proofs.«112829_j62216896250027_2_alg».proof.Proof.Gen.ReferenceIdeal.Read
import proofs.«112829_j62216896250027_2_alg».proof.Proof.SlidingChain

noncomputable section

namespace Cert.ReferenceIdeal.Layers

open Cert.ReferenceIdeal Cert.ReferenceIdeal.Read Idealize.ShloMosaic Idealize.ShloMosaic.ValueIdx Cert.Sliding

variable (x0 : (⟨S8192x7x2048, .f32⟩ : BufTy).Contents (Elt Ideal))
variable (x1 x2 : (⟨S2x2048, .f32⟩ : BufTy).Contents (Elt Ideal))
variable (x3 x4 : (⟨S3x2048, .f32⟩ : BufTy).Contents (Elt Ideal))

/-! ## A weight row, sliced out, flattened, and broadcast over batch and sentence position, read at `(b, j, e)` -/

theorem row1_0 (b : Fin 8192) (j : Fin 6) (e : Fin 2048) :
    val_main_v4 (F := Ideal) x1 (ix3 b j e) = x1 (ix2 0 e) := by
  rw [val_main_v4_apply, val_main_v3_apply, val_main_v2_apply, val_main_v1_apply]
  exact congrArg x1 (ix2_ext _ _ _ rfl (Nat.mod_eq_of_lt e.isLt))

theorem row1_1 (b : Fin 8192) (j : Fin 6) (e : Fin 2048) :
    val_main_v10 (F := Ideal) x1 (ix3 b j e) = x1 (ix2 1 e) := by
  rw [val_main_v10_apply, val_main_v9_apply, val_main_v8_apply, val_main_v7_apply]
  exact congrArg x1 (ix2_ext _ _ _ rfl (Nat.mod_eq_of_lt e.isLt))

theorem row2_0 (b : Fin 8192) (j : Fin 5) (e : Fin 2048) :
    val_main_v18 (F := Ideal) x2 (ix3 b j e) = x2 (ix2 0 e) := by
  rw [val_main_v18_apply, val_main_v17_apply, val_main_v16_apply, val_main_v15_apply]
  exact congrArg x2 (ix2_ext _ _ _ rfl (Nat.mod_eq_of_lt e.isLt))

theorem row2_1 (b : Fin 8192) (j : Fin 5) (e : Fin 2048) :
    val_main_v24 (F := Ideal) x2 (ix3 b j e) = x2 (ix2 1 e) := by
  rw [val_main_v24_apply, val_main_v23_apply, val_main_v22_apply, val_main_v21_apply]
  exact congrArg x2 (ix2_ext _ _ _ rfl (Nat.mod_eq_of_lt e.isLt))

theorem row3_0 (b : Fin 8192) (j : Fin 3) (e : Fin 2048) :
    val_main_v32 (F := Ideal) x3 (ix3 b j e) = x3 (ix2 0 e) := by
  rw [val_main_v32_apply, val_main_v31_apply, val_main_v30_apply, val_main_v29_apply]
  exact congrArg x3 (ix2_ext _ _ _ rfl (Nat.mod_eq_of_lt e.isLt))

theorem row3_1 (b : Fin 8192) (j : Fin 3) (e : Fin 2048) :
    val_main_v38 (F := Ideal) x3 (ix3 b j e) = x3 (ix2 1 e) := by
  rw [val_main_v38_apply, val_main_v37_apply, val_main_v36_apply, val_main_v35_apply]
  exact congrArg x3 (ix2_ext _ _ _ rfl (Nat.mod_eq_of_lt e.isLt))

theorem row3_2 (b : Fin 8192) (j : Fin 3) (e : Fin 2048) :
    val_main_v45 (F := Ideal) x3 (ix3 b j e) = x3 (ix2 2 e) := by
  rw [val_main_v45_apply, val_main_v44_apply, val_main_v43_apply, val_main_v42_apply]
  exact congrArg x3 (ix2_ext _ _ _ rfl (Nat.mod_eq_of_lt e.isLt))

theorem row4_0 (b : Fin 8192) (j : Fin 1) (e : Fin 2048) :
    val_main_v53 (F := Ideal) x4 (ix3 b j e) = x4 (ix2 0 e) := by
  rw [val_main_v53_apply, val_main_v52_apply, val_main_v51_apply, val_main_v50_apply]
  exact congrArg x4 (ix2_ext _ _ _ rfl (Nat.mod_eq_of_lt e.isLt))

theorem row4_1 (b : Fin 8192) (j : Fin 1) (e : Fin 2048) :
    val_main_v59 (F := Ideal) x4 (ix3 b j e) = x4 (ix2 1 e) := by
  rw [val_main_v59_apply, val_main_v58_apply, val_main_v57_apply, val_main_v56_apply]
  exact congrArg x4 (ix2_ext _ _ _ rfl (Nat.mod_eq_of_lt e.isLt))

theorem row4_2 (b : Fin 8192) (j : Fin 1) (e : Fin 2048) :
    val_main_v66 (F := Ideal) x4 (ix3 b j e) = x4 (ix2 2 e) := by
  rw [val_main_v66_apply, val_main_v65_apply, val_main_v64_apply, val_main_v63_apply]
  exact congrArg x4 (ix2_ext _ _ _ rfl (Nat.mod_eq_of_lt e.isLt))

/-! ## The four layers -/

/-- Layer 1 (7 -> 6): the first `tanh` array at `(b, j, e)` is the width-2 window on the input's sentence axis. -/
theorem layer1 (b : Fin 8192) (j : Fin 6) (e : Fin 2048) :
    val_main_v13 (F := Ideal) x0 x1 (ix3 b j e)
      = slide2 (n := 6) (fun k => x1 (ix2 k e)) (fun s => x0 (ix3 b s e)) j := by
  rw [val_main_v13_apply, val_main_v12_apply, val_main_v5_apply, val_main_v11_apply, row1_0, row1_1,
    val_main_v0_apply, val_main_v6_apply]
  rw [show idx_main_v0 (ix3 b j e) = ix3 b j.castSucc e from ix3_ext _ _ _ _ rfl rfl rfl,
    show idx_main_v6 (ix3 b j e) = ix3 b j.succ e from
      ix3_ext _ _ _ _ rfl (by show 1 + j.val = j.succ.val; rw [Fin.val_succ]; omega) rfl]
  rfl

/-- Layer 2 (6 -> 5): the width-2 window on layer 1's array. -/
theorem layer2 (b : Fin 8192) (j : Fin 5) (e : Fin 2048) :
    val_main_v27 (F := Ideal) x0 x1 x2 (ix3 b j e)
      = slide2 (n := 5) (fun k => x2 (ix2 k e)) (fun s => val_main_v13 (F := Ideal) x0 x1 (ix3 b s e)) j := by
  rw [val_main_v27_apply, val_main_v26_apply, val_main_v19_apply, val_main_v25_apply, row2_0, row2_1,
    val_main_v14_apply, val_main_v20_apply]
  rw [show idx_main_v14 (ix3 b j e) = ix3 b j.castSucc e from ix3_ext _ _ _ _ rfl rfl rfl,
    show idx_main_v20 (ix3 b j e) = ix3 b j.succ e from
      ix3_ext _ _ _ _ rfl (by show 1 + j.val = j.succ.val; rw [Fin.val_succ]; omega) rfl]
  rfl

/-- Layer 3 (5 -> 3): the width-3 window on layer 2's array. -/
theorem layer3 (b : Fin 8192) (j : Fin 3) (e : Fin 2048) :
    val_main_v48 (F := Ideal) x0 x1 x2 x3 (ix3 b j e)
      = slide3 (n := 3) (fun k => x3 (ix2 k e)) (fun s => val_main_v27 (F := Ideal) x0 x1 x2 (ix3 b s e)) j := by
  rw [val_main_v48_apply, val_main_v47_apply, val_main_v40_apply, val_main_v33_apply, val_main_v39_apply,
    val_main_v46_apply, row3_0, row3_1, row3_2, val_main_v28_apply, val_main_v34_apply, val_main_v41_apply]
  rw [show idx_main_v28 (ix3 b j e) = ix3 b j.castSucc.castSucc e from ix3_ext _ _ _ _ rfl rfl rfl,
    show idx_main_v34 (ix3 b j e) = ix3 b j.succ.castSucc e from
      ix3_ext _ _ _ _ rfl (by show 1 + j.val = j.succ.val; rw [Fin.val_succ]; omega) rfl,
    show idx_main_v41 (ix3 b j e) = ix3 b j.succ.succ e from
      ix3_ext _ _ _ _ rfl (by show 2 + j.val = j.succ.succ.val; rw [Fin.val_succ, Fin.val_succ]; omega) rfl]
  rfl

/-- Layer 4 (3 -> 1): the width-3 window on layer 3's array. -/
theorem layer4 (b : Fin 8192) (j : Fin 1) (e : Fin 2048) :
    val_main_v69 (F := Ideal) x0 x1 x2 x3 x4 (ix3 b j e)
      = slide3 (n := 1) (fun k => x4 (ix2 k e)) (fun s => val_main_v48 (F := Ideal) x0 x1 x2 x3 (ix3 b s e)) j := by
  rw [val_main_v69_apply, val_main_v68_apply, val_main_v61_apply, val_main_v54_apply, val_main_v60_apply,
    val_main_v67_apply, row4_0, row4_1, row4_2, val_main_v49_apply, val_main_v55_apply, val_main_v62_apply]
  rw [show idx_main_v49 (ix3 b j e) = ix3 b j.castSucc.castSucc e from ix3_ext _ _ _ _ rfl rfl rfl,
    show idx_main_v55 (ix3 b j e) = ix3 b j.succ.castSucc e from
      ix3_ext _ _ _ _ rfl (by show 1 + j.val = j.succ.val; rw [Fin.val_succ]; omega) rfl,
    show idx_main_v62 (ix3 b j e) = ix3 b j.succ.succ e from
      ix3_ext _ _ _ _ rfl (by show 2 + j.val = j.succ.succ.val; rw [Fin.val_succ, Fin.val_succ]; omega) rfl]
  rfl

/-! ## The result -/

/-- The reference's result at `(b, e)` is the chain's one remaining entry. -/
theorem ref_entry (b : Fin 8192) (e : Fin 2048) :
    val_main_v70 (F := Ideal) x0 x1 x2 x3 x4 (ix2 b e) = entry x0 x1 x2 x3 x4 b e := by
  rw [val_main_v70_apply,
    show idx_main_v70 (ix2 b e) = ix3 b (0 : Fin 1) e from
      ix3_ext _ _ _ _
        (by show (b.val * 2048 + e.val) / 2048 = b.val; have := e.isLt; omega) rfl
        (by show (b.val * 2048 + e.val) % 2048 = e.val; have := e.isLt; omega),
    layer4]
  have h3 : (fun s => val_main_v48 (F := Ideal) x0 x1 x2 x3 (ix3 b s e))
      = slide3 (n := 3) (fun k => x3 (ix2 k e)) (fun s => val_main_v27 (F := Ideal) x0 x1 x2 (ix3 b s e)) :=
    funext fun s => layer3 x0 x1 x2 x3 b s e
  have h2 : (fun s => val_main_v27 (F := Ideal) x0 x1 x2 (ix3 b s e))
      = slide2 (n := 5) (fun k => x2 (ix2 k e)) (fun s => val_main_v13 (F := Ideal) x0 x1 (ix3 b s e)) :=
    funext fun s => layer2 x0 x1 x2 b s e
  have h1 : (fun s => val_main_v13 (F := Ideal) x0 x1 (ix3 b s e))
      = slide2 (n := 6) (fun k => x1 (ix2 k e)) (fun s => x0 (ix3 b s e)) :=
    funext fun s => layer1 x0 x1 b s e
  rw [h3, h2, h1]
  rfl

/-- The reference's result array is `G` of its arguments. -/
theorem ref_eq : val_main_v70 (F := Ideal) x0 x1 x2 x3 x4 = G x0 x1 x2 x3 x4 := by
  funext i
  obtain ⟨b, e, rfl⟩ : ∃ (b : Fin 8192) (e : Fin 2048), i = ix2 b e := ⟨i 0, i 1, eq_ix2 i⟩
  exact ref_entry x0 x1 x2 x3 x4 b e

end Cert.ReferenceIdeal.Layers

end
-- ==== Proof.lean ====
/-
  A four-layer sliding-window multiply-add with `tanh`, computed tile by tile, equals the same chain computed on
  whole arrays.

  Input `X : [8192, 7, 2048]` (batch, sentence position, feature) and four weight arrays of 2, 2, 3, 3 rows of 2048
  features. At each batch row `b` and feature `e` both programs compute, on the extended reals, the chain
      7 -> 6 -> 5 -> 3 -> 1,   out j = tanh (a j * w 0 + a (j+1) * w 1 [+ a (j+2) * w 2]),
  along the sentence axis (`Cert.Sliding.chain`, `Cert.Sliding.G`), products added left to right in both.

  * The reference builds each layer as a whole array from sentence-axis slices of the previous layer and broadcast
    weight rows; layer by layer its arrays are the chain's layers (`Cert.ReferenceIdeal.Layers.ref_eq`).
  * The kernel first merges the sentence and feature axes (`[8192, 7 * 2048]`), then for each of 32 tiles of 256
    batch rows loads the seven column slabs `s * 2048 …` and the weight rows, runs the chain pointwise on the tile and
    stores it; the stored value at an element is the chain on the loaded values there
    (`Cert.KernelIdeal.Block.stored_apply`), a slab at `(p, q)` of tile `t` is `X (256 t + p, s, q)`, and the 32 tiles
    cover the result (`Cert.KernelIdeal.Whole.run`).

  No law of arithmetic is used, only where each number sits in memory; so the precondition (finite inputs) is not
  opened. The idealizing pass rewrote nothing, so `preserves` is `True`; the three frames are the generated frame
  runs, the reference's its generated run with the result dropped.
-/
import proofs.«112829_j62216896250027_2_alg».proof.Defs
import proofs.«112829_j62216896250027_2_alg».proof.Proof.Gen.Kernel
import proofs.«112829_j62216896250027_2_alg».proof.Proof.Gen.Kernel.Frame
import proofs.«112829_j62216896250027_2_alg».proof.Proof.Gen.KernelIdeal
import proofs.«112829_j62216896250027_2_alg».proof.Proof.Gen.KernelIdeal.Frame
import proofs.«112829_j62216896250027_2_alg».proof.Proof.Gen.ReferenceIdeal
import proofs.«112829_j62216896250027_2_alg».proof.Proof.Gen.ReferenceIdeal.Run
import proofs.«112829_j62216896250027_2_alg».proof.Proof.Gen.ReferenceIdeal.Read
import proofs.«112829_j62216896250027_2_alg».proof.Proof.Gen.Pre_finite_inputs
import proofs.«112829_j62216896250027_2_alg».proof.Proof.KernelArray
import proofs.«112829_j62216896250027_2_alg».proof.Proof.RefLayers
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Cert.Sliding.G` of the argument arrays, which agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v70_eq, Cert.ReferenceIdeal.Layers.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
